-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v223) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096x32 : Shape := ⟨3, ![1024, 4096, 32]⟩
abbrev S_ : Shape := ⟨0, ![]⟩

class Facts : Prop where
  bcast_S_S1024x4096x32 : S_.BroadcastsInDim S1024x4096x32 (![] : Fin 0 → Fin S1024x4096x32.rank)
  reducesTo_S1024x4096x32_S_d0_1_2 : S1024x4096x32.ReducesTo [0, 1, 2] S_
  h_S_ : 0 < S_.numel

variable [Facts]

def fn {F : FTy → Type} [FloatOps F] (main_arg0 : FVec F S1024x4096x32 .f32) : IVec S_ 1 :=
  let main_v0 : FVec F S1024x4096x32 .f32 := Host.absf main_arg0
  let main_cst : FVec F S_ .f32 := constant S_ .f32 0x7F800000#32
  let main_v1 : FVec F S1024x4096x32 .f32 := broadcastInDim S1024x4096x32 ![] bcast_S_S1024x4096x32 main_cst
  let main_v2 : IVec S1024x4096x32 1 := cmpf .olt main_v0 main_v1
  let main_c : IVec S_ 1 := constantI S_ 1 1#1
  let main_v3 : IVec S_ 1 := (fun x v => Host.reduce IntOp.andi x v reducesTo_S1024x4096x32_S_d0_1_2 h_S_) main_v2 main_c
  main_v3
-- ==== Kernel.lean ====
abbrev S1024x4096x32 : Shape := ⟨3, ![1024, 4096, 32]⟩
abbrev S1024x4096x5 : Shape := ⟨3, ![1024, 4096, 5]⟩
abbrev S128x128x32 : Shape := ⟨3, ![128, 128, 32]⟩
abbrev S128x128x5 : Shape := ⟨3, ![128, 128, 5]⟩
abbrev S32x128x128 : Shape := ⟨3, ![32, 128, 128]⟩
abbrev S1x128x128 : Shape := ⟨3, ![1, 128, 128]⟩
abbrev S128x128 : Shape := ⟨2, ![128, 128]⟩
abbrev S5x128x128 : Shape := ⟨3, ![5, 128, 128]⟩

abbrev nBuf : Space → Nat
  | .hbm => 2
  | .vmem => 4
  | .smem => 0
  | _ => 0

abbrev bufTy : (tb : Table) → Fin (tcTables nBuf tb) → BufTy
  | .hbm, ⟨0, _⟩ => ⟨S1024x4096x32, .f32⟩
  | .hbm, ⟨1, _⟩ => ⟨S1024x4096x5, .f32⟩
  | .local _ .vmem, ⟨0, _⟩ => ⟨S128x128x32, .f32⟩
  | .local _ .vmem, ⟨1, _⟩ => ⟨S128x128x32, .f32⟩
  | .local _ .vmem, ⟨2, _⟩ => ⟨S128x128x5, .f32⟩
  | .local _ .vmem, ⟨3, _⟩ => ⟨S128x128x5, .f32⟩
  | _, _ => ⟨S1024x4096x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x128x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S128x128x32_S128x128x32_0_0_0 : ∀ a, (![0, 0, 0] : Fin 3 → Nat) a + S128x128x32.size a ≤ S128x128x32.size a
  h_S128x128x32 : 0 < S128x128x32.numel
  transposes_S128x128x32_p2_0_1_S32x128x128 : S128x128x32.Transposes [2, 0, 1] S32x128x128
  slices_S32x128x128_o1_0_0_S1x128x128 : S32x128x128.Slices ![1, 0, 0] S1x128x128
  shapeCasts_S1x128x128_S128x128 : S1x128x128.ShapeCasts S128x128
  bitsLt_bf16_f32 : FTy.bits .bf16 < FTy.bits .f32
  slices_S32x128x128_o2_0_0_S1x128x128 : S32x128x128.Slices ![2, 0, 0] S1x128x128
  slices_S32x128x128_o3_0_0_S1x128x128 : S32x128x128.Slices ![3, 0, 0] S1x128x128
  slices_S32x128x128_o4_0_0_S1x128x128 : S32x128x128.Slices ![4, 0, 0] S1x128x128
  slices_S32x128x128_o5_0_0_S1x128x128 : S32x128x128.Slices ![5, 0, 0] S1x128x128
  slices_S32x128x128_o6_0_0_S1x128x128 : S32x128x128.Slices ![6, 0, 0] S1x128x128
  slices_S32x128x128_o7_0_0_S1x128x128 : S32x128x128.Slices ![7, 0, 0] S1x128x128
  slices_S32x128x128_o8_0_0_S1x128x128 : S32x128x128.Slices ![8, 0, 0] S1x128x128
  slices_S32x128x128_o9_0_0_S1x128x128 : S32x128x128.Slices ![9, 0, 0] S1x128x128
  slices_S32x128x128_o10_0_0_S1x128x128 : S32x128x128.Slices ![10, 0, 0] S1x128x128
  slices_S32x128x128_o11_0_0_S1x128x128 : S32x128x128.Slices ![11, 0, 0] S1x128x128
  slices_S32x128x128_o12_0_0_S1x128x128 : S32x128x128.Slices ![12, 0, 0] S1x128x128
  shapeCasts_S128x128_S1x128x128 : S128x128.ShapeCasts S1x128x128
  concatenates_S1x128x128_S1x128x128_S1x128x128_S1x128x128_S1x128x128_S5x128x128_d0 : Shape.Concatenates [S1x128x128, S1x128x128, S1x128x128, S1x128x128, S1x128x128] S5x128x128 0
  transposes_S5x128x128_p1_2_0_S128x128x5 : S5x128x128.Transposes [1, 2, 0] S128x128x5
  inb_S128x128x5_S128x128x5_0_0_0 : ∀ a, (![0, 0, 0] : Fin 3 → Nat) a + S128x128x5.size a ≤ S128x128x5.size a
  h_S128x128x5 : 0 < S128x128x5.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128x32.size a ≤ S1024x4096x32.size a
  hwx0_0 : ∀ i : grid0.Coords, EltTy.bits .f32 = 32 ∨ (Rect.block (s := S1024x4096x32) S128x128x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128x5.size a ≤ S1024x4096x5.size a
  hwx0_1 : ∀ i : grid0.Coords, EltTy.bits .f32 = 32 ∨ (Rect.block (s := S1024x4096x5) S128x128x5.size (cc0_transform_1 i) (hinb0_1 i)).WholeWords (EltTy.packing .f32)

variable [Facts₀]

abbrev win0_0 : Pipeline.Window sig grid0 :=
  Pipeline.Window.ofSpec (Memref.whole main_arg0) S128x128x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128x5.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1024x4096x32 : Shape := ⟨3, ![1024, 4096, 32]⟩
abbrev S1024x4096x8 : Shape := ⟨3, ![1024, 4096, 8]⟩
abbrev S1024x4096x23 : Shape := ⟨3, ![1024, 4096, 23]⟩
abbrev S_ : Shape := ⟨0, ![]⟩
abbrev S1024x4096x1 : Shape := ⟨3, ![1024, 4096, 1]⟩
abbrev S1024x4096x5 : Shape := ⟨3, ![1024, 4096, 5]⟩

abbrev nBuf : Space → Nat
  | .hbm => 274
  | .vmem => 0
  | .smem => 0
  | _ => 0

abbrev hbmTy0_0 (i : Nat) : BufTy := match i % 128 with
  | 0 => ⟨S1024x4096x32, .f32⟩
  | 1 => ⟨S1024x4096x8, .f32⟩
  | 2 => ⟨S1024x4096x23, .f32⟩
  | 3 => ⟨S_, .f32⟩
  | 4 => ⟨S1024x4096x1, .f32⟩
  | 5 => ⟨S1024x4096x1, .f32⟩
  | 6 => ⟨S_, .f32⟩
  | 7 => ⟨S1024x4096x1, .f32⟩
  | 8 => ⟨S1024x4096x1, .f32⟩
  | 9 => ⟨S_, .f32⟩
  | 10 => ⟨S1024x4096x1, .f32⟩
  | 11 => ⟨S1024x4096x1, .f32⟩
  | 12 => ⟨S_, .f32⟩
  | 13 => ⟨S1024x4096x1, .f32⟩
  | 14 => ⟨S1024x4096x1, .f32⟩
  | 15 => ⟨S1024x4096x1, .f32⟩
  | 16 => ⟨S1024x4096x1, .f32⟩
  | 17 => ⟨S_, .f32⟩
  | 18 => ⟨S1024x4096x1, .f32⟩
  | 19 => ⟨S1024x4096x1, .f32⟩
  | 20 => ⟨S1024x4096x1, .f32⟩
  | 21 => ⟨S1024x4096x1, .f32⟩
  | 22 => ⟨S_, .f32⟩
  | 23 => ⟨S1024x4096x1, .f32⟩
  | 24 => ⟨S1024x4096x1, .f32⟩
  | 25 => ⟨S1024x4096x1, .f32⟩
  | 26 => ⟨S1024x4096x1, .f32⟩
  | 27 => ⟨S1024x4096x1, .f32⟩
  | 28 => ⟨S_, .f32⟩
  | 29 => ⟨S1024x4096x1, .f32⟩
  | 30 => ⟨S1024x4096x1, .f32⟩
  | 31 => ⟨S_, .f32⟩
  | 32 => ⟨S1024x4096x1, .f32⟩
  | 33 => ⟨S1024x4096x1, .f32⟩
  | 34 => ⟨S_, .f32⟩
  | 35 => ⟨S1024x4096x1, .f32⟩
  | 36 => ⟨S1024x4096x1, .f32⟩
  | 37 => ⟨S1024x4096x1, .f32⟩
  | 38 => ⟨S1024x4096x1, .f32⟩
  | 39 => ⟨S_, .f32⟩
  | 40 => ⟨S1024x4096x1, .f32⟩
  | 41 => ⟨S1024x4096x1, .f32⟩
  | 42 => ⟨S1024x4096x1, .f32⟩
  | 43 => ⟨S1024x4096x1, .f32⟩
  | 44 => ⟨S_, .f32⟩
  | 45 => ⟨S1024x4096x1, .f32⟩
  | 46 => ⟨S1024x4096x1, .f32⟩
  | 47 => ⟨S1024x4096x1, .f32⟩
  | 48 => ⟨S1024x4096x1, .f32⟩
  | 49 => ⟨S1024x4096x1, .f32⟩
  | 50 => ⟨S_, .f32⟩
  | 51 => ⟨S1024x4096x1, .f32⟩
  | 52 => ⟨S1024x4096x1, .f32⟩
  | 53 => ⟨S_, .f32⟩
  | 54 => ⟨S1024x4096x1, .f32⟩
  | 55 => ⟨S1024x4096x1, .f32⟩
  | 56 => ⟨S_, .f32⟩
  | 57 => ⟨S1024x4096x1, .f32⟩
  | 58 => ⟨S1024x4096x1, .f32⟩
  | 59 => ⟨S1024x4096x1, .f32⟩
  | 60 => ⟨S1024x4096x1, .f32⟩
  | 61 => ⟨S_, .f32⟩
  | 62 => ⟨S1024x4096x1, .f32⟩
  | 63 => ⟨S1024x4096x1, .f32⟩
  | 64 => ⟨S1024x4096x1, .f32⟩
  | 65 => ⟨S1024x4096x1, .f32⟩
  | 66 => ⟨S_, .f32⟩
  | 67 => ⟨S1024x4096x1, .f32⟩
  | 68 => ⟨S1024x4096x1, .f32⟩
  | 69 => ⟨S1024x4096x1, .f32⟩
  | 70 => ⟨S1024x4096x1, .f32⟩
  | 71 => ⟨S1024x4096x1, .f32⟩
  | 72 => ⟨S_, .f32⟩
  | 73 => ⟨S1024x4096x1, .f32⟩
  | 74 => ⟨S1024x4096x1, .f32⟩
  | 75 => ⟨S_, .f32⟩
  | 76 => ⟨S1024x4096x1, .f32⟩
  | 77 => ⟨S1024x4096x1, .f32⟩
  | 78 => ⟨S_, .f32⟩
  | 79 => ⟨S1024x4096x1, .f32⟩
  | 80 => ⟨S1024x4096x1, .f32⟩
  | 81 => ⟨S1024x4096x1, .f32⟩
  | 82 => ⟨S1024x4096x1, .f32⟩
  | 83 => ⟨S_, .f32⟩
  | 84 => ⟨S1024x4096x1, .f32⟩
  | 85 => ⟨S1024x4096x1, .f32⟩
  | 86 => ⟨S1024x4096x1, .f32⟩
  | 87 => ⟨S1024x4096x1, .f32⟩
  | 88 => ⟨S_, .f32⟩
  | 89 => ⟨S1024x4096x1, .f32⟩
  | 90 => ⟨S1024x4096x1, .f32⟩
  | 91 => ⟨S1024x4096x1, .f32⟩
  | 92 => ⟨S1024x4096x1, .f32⟩
  | 93 => ⟨S1024x4096x1, .f32⟩
  | 94 => ⟨S_, .f32⟩
  | 95 => ⟨S1024x4096x1, .f32⟩
  | 96 => ⟨S1024x4096x1, .f32⟩
  | 97 => ⟨S_, .f32⟩
  | 98 => ⟨S1024x4096x1, .f32⟩
  | 99 => ⟨S1024x4096x1, .f32⟩
  | 100 => ⟨S_, .f32⟩
  | 101 => ⟨S1024x4096x1, .f32⟩
  | 102 => ⟨S1024x4096x1, .f32⟩
  | 103 => ⟨S1024x4096x1, .f32⟩
  | 104 => ⟨S1024x4096x1, .f32⟩
  | 105 => ⟨S_, .f32⟩
  | 106 => ⟨S1024x4096x1, .f32⟩
  | 107 => ⟨S1024x4096x1, .f32⟩
  | 108 => ⟨S1024x4096x1, .f32⟩
  | 109 => ⟨S1024x4096x1, .f32⟩
  | 110 => ⟨S_, .f32⟩
  | 111 => ⟨S1024x4096x1, .f32⟩
  | 112 => ⟨S1024x4096x1, .f32⟩
  | 113 => ⟨S1024x4096x1, .f32⟩
  | 114 => ⟨S1024x4096x1, .f32⟩
  | 115 => ⟨S1024x4096x1, .f32⟩
  | 116 => ⟨S_, .f32⟩
  | 117 => ⟨S1024x4096x1, .f32⟩
  | 118 => ⟨S1024x4096x1, .f32⟩
  | 119 => ⟨S_, .f32⟩
  | 120 => ⟨S1024x4096x1, .f32⟩
  | 121 => ⟨S1024x4096x1, .f32⟩
  | 122 => ⟨S_, .f32⟩
  | 123 => ⟨S1024x4096x1, .f32⟩
  | 124 => ⟨S1024x4096x1, .f32⟩
  | 125 => ⟨S1024x4096x1, .f32⟩
  | 126 => ⟨S1024x4096x1, .f32⟩
  | 127 => ⟨S_, .f32⟩
  | _ => ⟨S1024x4096x32, .f32⟩

abbrev hbmTy0_1 (i : Nat) : BufTy := match i % 128 with
  | 0 => ⟨S1024x4096x1, .f32⟩
  | 1 => ⟨S1024x4096x1, .f32⟩
  | 2 => ⟨S1024x4096x1, .f32⟩
  | 3 => ⟨S1024x4096x1, .f32⟩
  | 4 => ⟨S_, .f32⟩
  | 5 => ⟨S1024x4096x1, .f32⟩
  | 6 => ⟨S1024x4096x1, .f32⟩
  | 7 => ⟨S1024x4096x1, .f32⟩
  | 8 => ⟨S1024x4096x1, .f32⟩
  | 9 => ⟨S1024x4096x1, .f32⟩
  | 10 => ⟨S_, .f32⟩
  | 11 => ⟨S1024x4096x1, .f32⟩
  | 12 => ⟨S1024x4096x1, .f32⟩
  | 13 => ⟨S_, .f32⟩
  | 14 => ⟨S1024x4096x1, .f32⟩
  | 15 => ⟨S1024x4096x1, .f32⟩
  | 16 => ⟨S_, .f32⟩
  | 17 => ⟨S1024x4096x1, .f32⟩
  | 18 => ⟨S1024x4096x1, .f32⟩
  | 19 => ⟨S1024x4096x1, .f32⟩
  | 20 => ⟨S1024x4096x1, .f32⟩
  | 21 => ⟨S_, .f32⟩
  | 22 => ⟨S1024x4096x1, .f32⟩
  | 23 => ⟨S1024x4096x1, .f32⟩
  | 24 => ⟨S1024x4096x1, .f32⟩
  | 25 => ⟨S1024x4096x1, .f32⟩
  | 26 => ⟨S_, .f32⟩
  | 27 => ⟨S1024x4096x1, .f32⟩
  | 28 => ⟨S1024x4096x1, .f32⟩
  | 29 => ⟨S1024x4096x1, .f32⟩
  | 30 => ⟨S1024x4096x1, .f32⟩
  | 31 => ⟨S1024x4096x1, .f32⟩
  | 32 => ⟨S_, .f32⟩
  | 33 => ⟨S1024x4096x1, .f32⟩
  | 34 => ⟨S1024x4096x1, .f32⟩
  | 35 => ⟨S_, .f32⟩
  | 36 => ⟨S1024x4096x1, .f32⟩
  | 37 => ⟨S1024x4096x1, .f32⟩
  | 38 => ⟨S_, .f32⟩
  | 39 => ⟨S1024x4096x1, .f32⟩
  | 40 => ⟨S1024x4096x1, .f32⟩
  | 41 => ⟨S1024x4096x1, .f32⟩
  | 42 => ⟨S1024x4096x1, .f32⟩
  | 43 => ⟨S_, .f32⟩
  | 44 => ⟨S1024x4096x1, .f32⟩
  | 45 => ⟨S1024x4096x1, .f32⟩
  | 46 => ⟨S1024x4096x1, .f32⟩
  | 47 => ⟨S1024x4096x1, .f32⟩
  | 48 => ⟨S_, .f32⟩
  | 49 => ⟨S1024x4096x1, .f32⟩
  | 50 => ⟨S1024x4096x1, .f32⟩
  | 51 => ⟨S1024x4096x1, .f32⟩
  | 52 => ⟨S1024x4096x1, .f32⟩
  | 53 => ⟨S_, .f32⟩
  | 54 => ⟨S1024x4096x1, .f32⟩
  | 55 => ⟨S1024x4096x1, .f32⟩
  | 56 => ⟨S_, .f32⟩
  | 57 => ⟨S1024x4096x1, .f32⟩
  | 58 => ⟨S1024x4096x1, .f32⟩
  | 59 => ⟨S_, .f32⟩
  | 60 => ⟨S1024x4096x1, .f32⟩
  | 61 => ⟨S1024x4096x1, .f32⟩
  | 62 => ⟨S_, .f32⟩
  | 63 => ⟨S1024x4096x1, .f32⟩
  | 64 => ⟨S1024x4096x1, .f32⟩
  | 65 => ⟨S_, .f32⟩
  | 66 => ⟨S1024x4096x1, .f32⟩
  | 67 => ⟨S1024x4096x1, .f32⟩
  | 68 => ⟨S_, .f32⟩
  | 69 => ⟨S1024x4096x1, .f32⟩
  | 70 => ⟨S1024x4096x1, .f32⟩
  | 71 => ⟨S_, .f32⟩
  | 72 => ⟨S1024x4096x1, .f32⟩
  | 73 => ⟨S1024x4096x1, .f32⟩
  | 74 => ⟨S_, .f32⟩
  | 75 => ⟨S1024x4096x1, .f32⟩
  | 76 => ⟨S1024x4096x1, .f32⟩
  | 77 => ⟨S1024x4096x1, .f32⟩
  | 78 => ⟨S1024x4096x1, .f32⟩
  | 79 => ⟨S1024x4096x1, .f32⟩
  | 80 => ⟨S1024x4096x1, .f32⟩
  | 81 => ⟨S1024x4096x1, .f32⟩
  | 82 => ⟨S1024x4096x1, .f32⟩
  | 83 => ⟨S1024x4096x1, .f32⟩
  | 84 => ⟨S1024x4096x1, .f32⟩
  | 85 => ⟨S1024x4096x1, .f32⟩
  | 86 => ⟨S1024x4096x1, .f32⟩
  | 87 => ⟨S1024x4096x1, .f32⟩
  | 88 => ⟨S1024x4096x1, .f32⟩
  | 89 => ⟨S1024x4096x1, .f32⟩
  | 90 => ⟨S1024x4096x1, .f32⟩
  | 91 => ⟨S1024x4096x1, .f32⟩
  | 92 => ⟨S1024x4096x1, .f32⟩
  | 93 => ⟨S1024x4096x1, .f32⟩
  | 94 => ⟨S1024x4096x1, .f32⟩
  | 95 => ⟨S1024x4096x1, .f32⟩
  | 96 => ⟨S1024x4096x1, .f32⟩
  | 97 => ⟨S1024x4096x1, .f32⟩
  | 98 => ⟨S1024x4096x1, .f32⟩
  | 99 => ⟨S1024x4096x1, .f32⟩
  | 100 => ⟨S1024x4096x1, .f32⟩
  | 101 => ⟨S1024x4096x1, .f32⟩
  | 102 => ⟨S1024x4096x1, .f32⟩
  | 103 => ⟨S1024x4096x1, .f32⟩
  | 104 => ⟨S1024x4096x1, .f32⟩
  | 105 => ⟨S1024x4096x1, .f32⟩
  | 106 => ⟨S1024x4096x1, .f32⟩
  | 107 => ⟨S1024x4096x1, .f32⟩
  | 108 => ⟨S1024x4096x1, .f32⟩
  | 109 => ⟨S1024x4096x1, .f32⟩
  | 110 => ⟨S1024x4096x1, .f32⟩
  | 111 => ⟨S1024x4096x1, .f32⟩
  | 112 => ⟨S1024x4096x1, .f32⟩
  | 113 => ⟨S1024x4096x1, .f32⟩
  | 114 => ⟨S1024x4096x1, .f32⟩
  | 115 => ⟨S1024x4096x1, .f32⟩
  | 116 => ⟨S1024x4096x1, .f32⟩
  | 117 => ⟨S1024x4096x1, .f32⟩
  | 118 => ⟨S1024x4096x1, .f32⟩
  | 119 => ⟨S1024x4096x1, .f32⟩
  | 120 => ⟨S1024x4096x1, .f32⟩
  | 121 => ⟨S1024x4096x1, .f32⟩
  | 122 => ⟨S1024x4096x1, .f32⟩
  | 123 => ⟨S1024x4096x1, .f32⟩
  | 124 => ⟨S1024x4096x1, .f32⟩
  | 125 => ⟨S1024x4096x1, .f32⟩
  | 126 => ⟨S1024x4096x1, .f32⟩
  | 127 => ⟨S1024x4096x1, .f32⟩
  | _ => ⟨S1024x4096x32, .f32⟩

abbrev hbmTy0_2 (i : Nat) : BufTy := match i % 128 with
  | 0 => ⟨S1024x4096x1, .f32⟩
  | 1 => ⟨S1024x4096x1, .f32⟩
  | 2 => ⟨S1024x4096x1, .f32⟩
  | 3 => ⟨S1024x4096x1, .f32⟩
  | 4 => ⟨S1024x4096x1, .f32⟩
  | 5 => ⟨S1024x4096x1, .f32⟩
  | 6 => ⟨S1024x4096x1, .f32⟩
  | 7 => ⟨S1024x4096x1, .f32⟩
  | 8 => ⟨S1024x4096x1, .f32⟩
  | 9 => ⟨S1024x4096x1, .f32⟩
  | 10 => ⟨S1024x4096x1, .f32⟩
  | 11 => ⟨S1024x4096x1, .f32⟩
  | 12 => ⟨S1024x4096x1, .f32⟩
  | 13 => ⟨S1024x4096x1, .f32⟩
  | 14 => ⟨S1024x4096x1, .f32⟩
  | 15 => ⟨S1024x4096x1, .f32⟩
  | 16 => ⟨S1024x4096x1, .f32⟩
  | 17 => ⟨S1024x4096x5, .f32⟩
  | _ => ⟨S1024x4096x32, .f32⟩

abbrev hbmTy (i : Nat) : BufTy := match i / 128 with
  | 0 => hbmTy0_0 i
  | 1 => hbmTy0_1 i
  | 2 => hbmTy0_2 i
  | _ => ⟨S1024x4096x32, .f32⟩

abbrev bufTy : (tb : Table) → Fin (tcTables nBuf tb) → BufTy
  | .hbm, ⟨i, _⟩ => hbmTy i
  | _, _ => ⟨S1024x4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_3 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_4 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_5 : Ref sig .tc := ⟨.hbm, 28, rfl⟩
abbrev main_v21 : Ref sig .tc := ⟨.hbm, 29, rfl⟩
abbrev main_v22 : Ref sig .tc := ⟨.hbm, 30, rfl⟩
abbrev main_cst_6 : Ref sig .tc := ⟨.hbm, 31, rfl⟩
abbrev main_v23 : Ref sig .tc := ⟨.hbm, 32, rfl⟩
abbrev main_v24 : Ref sig .tc := ⟨.hbm, 33, rfl⟩
abbrev main_cst_7 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_8 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_9 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_10 : Ref sig .tc := ⟨.hbm, 50, rfl⟩
abbrev main_v38 : Ref sig .tc := ⟨.hbm, 51, rfl⟩
abbrev main_v39 : Ref sig .tc := ⟨.hbm, 52, rfl⟩
abbrev main_cst_11 : Ref sig .tc := ⟨.hbm, 53, rfl⟩
abbrev main_v40 : Ref sig .tc := ⟨.hbm, 54, rfl⟩
abbrev main_v41 : Ref sig .tc := ⟨.hbm, 55, rfl⟩
abbrev main_cst_12 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_13 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_14 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_15 : Ref sig .tc := ⟨.hbm, 72, rfl⟩
abbrev main_v55 : Ref sig .tc := ⟨.hbm, 73, rfl⟩
abbrev main_v56 : Ref sig .tc := ⟨.hbm, 74, rfl⟩
abbrev main_cst_16 : Ref sig .tc := ⟨.hbm, 75, rfl⟩
abbrev main_v57 : Ref sig .tc := ⟨.hbm, 76, rfl⟩
abbrev main_v58 : Ref sig .tc := ⟨.hbm, 77, rfl⟩
abbrev main_cst_17 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_18 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_19 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_20 : Ref sig .tc := ⟨.hbm, 94, rfl⟩
abbrev main_v72 : Ref sig .tc := ⟨.hbm, 95, rfl⟩
abbrev main_v73 : Ref sig .tc := ⟨.hbm, 96, rfl⟩
abbrev main_cst_21 : Ref sig .tc := ⟨.hbm, 97, rfl⟩
abbrev main_v74 : Ref sig .tc := ⟨.hbm, 98, rfl⟩
abbrev main_v75 : Ref sig .tc := ⟨.hbm, 99, rfl⟩
abbrev main_cst_22 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_23 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_24 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_25 : Ref sig .tc := ⟨.hbm, 116, rfl⟩
abbrev main_v89 : Ref sig .tc := ⟨.hbm, 117, rfl⟩
abbrev main_v90 : Ref sig .tc := ⟨.hbm, 118, rfl⟩
abbrev main_cst_26 : Ref sig .tc := ⟨.hbm, 119, rfl⟩
abbrev main_v91 : Ref sig .tc := ⟨.hbm, 120, rfl⟩
abbrev main_v92 : Ref sig .tc := ⟨.hbm, 121, rfl⟩
abbrev main_cst_27 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_28 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_29 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_cst_30 : Ref sig .tc := ⟨.hbm, 138, rfl⟩
abbrev main_v106 : Ref sig .tc := ⟨.hbm, 139, rfl⟩
abbrev main_v107 : Ref sig .tc := ⟨.hbm, 140, rfl⟩
abbrev main_cst_31 : Ref sig .tc := ⟨.hbm, 141, rfl⟩
abbrev main_v108 : Ref sig .tc := ⟨.hbm, 142, rfl⟩
abbrev main_v109 : Ref sig .tc := ⟨.hbm, 143, rfl⟩
abbrev main_cst_32 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_cst_33 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_cst_34 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_cst_35 : Ref sig .tc := ⟨.hbm, 160, rfl⟩
abbrev main_v123 : Ref sig .tc := ⟨.hbm, 161, rfl⟩
abbrev main_v124 : Ref sig .tc := ⟨.hbm, 162, rfl⟩
abbrev main_cst_36 : Ref sig .tc := ⟨.hbm, 163, rfl⟩
abbrev main_v125 : Ref sig .tc := ⟨.hbm, 164, rfl⟩
abbrev main_v126 : Ref sig .tc := ⟨.hbm, 165, rfl⟩
abbrev main_cst_37 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_cst_38 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_cst_39 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_cst_40 : Ref sig .tc := ⟨.hbm, 181, rfl⟩
abbrev main_v139 : Ref sig .tc := ⟨.hbm, 182, rfl⟩
abbrev main_v140 : Ref sig .tc := ⟨.hbm, 183, rfl⟩
abbrev main_cst_41 : Ref sig .tc := ⟨.hbm, 184, rfl⟩
abbrev main_v141 : Ref sig .tc := ⟨.hbm, 185, rfl⟩
abbrev main_v142 : Ref sig .tc := ⟨.hbm, 186, rfl⟩
abbrev main_cst_42 : Ref sig .tc := ⟨.hbm, 187, rfl⟩
abbrev main_v143 : Ref sig .tc := ⟨.hbm, 188, rfl⟩
abbrev main_v144 : Ref sig .tc := ⟨.hbm, 189, rfl⟩
abbrev main_cst_43 : Ref sig .tc := ⟨.hbm, 190, rfl⟩
abbrev main_v145 : Ref sig .tc := ⟨.hbm, 191, rfl⟩
abbrev main_v146 : Ref sig .tc := ⟨.hbm, 192, rfl⟩
abbrev main_cst_44 : Ref sig .tc := ⟨.hbm, 193, rfl⟩
abbrev main_v147 : Ref sig .tc := ⟨.hbm, 194, rfl⟩
abbrev main_v148 : Ref sig .tc := ⟨.hbm, 195, rfl⟩
abbrev main_cst_45 : Ref sig .tc := ⟨.hbm, 196, rfl⟩
abbrev main_v149 : Ref sig .tc := ⟨.hbm, 197, rfl⟩
abbrev main_v150 : Ref sig .tc := ⟨.hbm, 198, rfl⟩
abbrev main_cst_46 : Ref sig .tc := ⟨.hbm, 199, rfl⟩
abbrev main_v151 : Ref sig .tc := ⟨.hbm, 200, rfl⟩
abbrev main_v152 : Ref sig .tc := ⟨.hbm, 201, rfl⟩
abbrev main_cst_47 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩
abbrev main_v219 : Ref sig .tc := ⟨.hbm, 269, rfl⟩
abbrev main_v220 : Ref sig .tc := ⟨.hbm, 270, rfl⟩
abbrev main_v221 : Ref sig .tc := ⟨.hbm, 271, rfl⟩
abbrev main_v222 : Ref sig .tc := ⟨.hbm, 272, rfl⟩
abbrev main_v223 : Ref sig .tc := ⟨.hbm, 273, rfl⟩

abbrev nD : Nat := 1
abbrev τ : Topo := Topo.v7x

variable {F : FTy → Type} [FloatOps F]

class Facts₀ : Prop where
  slices_S1024x4096x32_S1024x4096x8_0_0_1 : S1024x4096x32.Slices ![0, 0, 1] S1024x4096x8
  slices_S1024x4096x32_S1024x4096x23_0_0_9 : S1024x4096x32.Slices ![0, 0, 9] S1024x4096x23
  bcast_S_S1024x4096x1 : S_.BroadcastsInDim S1024x4096x1 (![] : Fin 0 → Fin S1024x4096x1.rank)
  slices_S1024x4096x8_S1024x4096x1_0_0_7 : S1024x4096x8.Slices ![0, 0, 7] S1024x4096x1
  slices_S1024x4096x8_S1024x4096x1_0_0_6 : S1024x4096x8.Slices ![0, 0, 6] S1024x4096x1
  slices_S1024x4096x8_S1024x4096x1_0_0_5 : S1024x4096x8.Slices ![0, 0, 5] S1024x4096x1
  slices_S1024x4096x8_S1024x4096x1_0_0_4 : S1024x4096x8.Slices ![0, 0, 4] S1024x4096x1
  slices_S1024x4096x8_S1024x4096x1_0_0_3 : S1024x4096x8.Slices ![0, 0, 3] S1024x4096x1
  slices_S1024x4096x8_S1024x4096x1_0_0_2 : S1024x4096x8.Slices ![0, 0, 2] S1024x4096x1
  slices_S1024x4096x8_S1024x4096x1_0_0_1 : S1024x4096x8.Slices ![0, 0, 1] S1024x4096x1
  slices_S1024x4096x8_S1024x4096x1_0_0_0 : S1024x4096x8.Slices ![0, 0, 0] S1024x4096x1
  slices_S1024x4096x23_S1024x4096x1_0_0_0 : S1024x4096x23.Slices ![0, 0, 0] S1024x4096x1
  slices_S1024x4096x23_S1024x4096x1_0_0_1 : S1024x4096x23.Slices ![0, 0, 1] S1024x4096x1
  slices_S1024x4096x23_S1024x4096x1_0_0_2 : S1024x4096x23.Slices ![0, 0, 2] S1024x4096x1
  slices_S1024x4096x23_S1024x4096x1_0_0_3 : S1024x4096x23.Slices ![0, 0, 3] S1024x4096x1
  concatenates_S1024x4096x1_S1024x4096x1_S1024x4096x1_S1024x4096x1_S1024x4096x1_S1024x4096x5_d2 : Shape.Concatenates [S1024x4096x1, S1024x4096x1, S1024x4096x1, S1024x4096x1, S1024x4096x1] S1024x4096x5 2

variable [Facts₀]

class Facts : Prop extends Facts₀ where

variable [Facts]
-- ==== Proof.Spec.lean ====
/-
  The arithmetic both programs perform at one position of the [1024, 4096] plane, on the extended reals.

  An input row holds 32 numbers; the programs read entries 1..8 (the exponent bits e0..e7, most significant first)
  and 9..12 (the top four mantissa bits m0..m3).  Boolean gates are written as arithmetic: AND is a product,
  NOT a is 1 - a, a XOR c is (a + c) - (2 a) c, r OR t is (r + t) - r t.  The exponent minus 127 is computed by a
  ripple adder (add 1000 0000 with carry-in 1): only the top position adds a 1 bit, the seven lower positions add 0,
  so there the sum bit is e XOR carry and the next carry is e AND carry.  From the eight difference bits the programs
  form the indicators "the difference is 0", ..., "is 4", combine them with the mantissa bits into the five bits of
  the floor of the base-2 logarithm, and emit those most significant first.

  Nothing here assumes the inputs are 0 or 1, or even finite: the expressions below are just polynomial
  expressions on the extended reals, and the two programs are compared as such.
-/
import Idealize.ShloMosaic.PureOps.Ideal.Laws
import Idealize.ShloMosaic.Lib.ValueIdx

noncomputable section

namespace Cert.Spike

open Idealize.ShloMosaic

/-! ## The float literals the programs spell -/

/-- The f32 pattern of `0.0` denotes 0. -/
theorem f32_zero : Ideal.ofBits .f32 0x00000000#32 = 0 := Ideal.ofBits_zero_f32

/-- The f32 pattern of `1.0` denotes 1. -/
theorem f32_one : Ideal.ofBits .f32 0x3F800000#32 = 1 := by
  simp [Ideal.ofBits, Ideal.ieee, -EReal.coe_mul]; norm_num

/-- The f32 pattern of `2.0` denotes 2. -/
theorem f32_two : Ideal.ofBits .f32 0x40000000#32 = 2 := by
  simp [Ideal.ofBits, Ideal.ieee, -EReal.coe_mul]; norm_num; norm_cast

/-- The bf16 pattern of `1.0` denotes 1. -/
theorem bf16_one : Ideal.ofBits .bf16 0x3F80#16 = 1 := by
  simp [Ideal.ofBits, Ideal.ieee, -EReal.coe_mul]; norm_num

/-- The bf16 pattern of `2.0` denotes 2. -/
theorem bf16_two : Ideal.ofBits .bf16 0x4000#16 = 2 := by
  simp [Ideal.ofBits, Ideal.ieee, -EReal.coe_mul]; norm_num; norm_cast

/-! ## The gates -/

/-- a XOR c as arithmetic. -/
def xor2 (a c : EReal) : EReal := (a + c) - (2 * a) * c

/-- r OR t as arithmetic. -/
def or2 (r t : EReal) : EReal := (r + t) - r * t

/-- NOT a as arithmetic. -/
def not1 (a : EReal) : EReal := 1 - a

/-! ## One position's arithmetic

`x` is the row of 32 inputs at the position: `x 1 … x 8` are the exponent bits e0 … e7 (most significant first),
`x 9 … x 12` the mantissa bits m0 … m3. -/

section
variable (x : Fin 32 → EReal)

/-- The carry out of position 7 of the ripple adder (carry-in 1, added bit 0): e7 AND 1 = e7. -/
def c7 : EReal := x 8
/-- The carry out of position 6: e6 AND c7 (the added bit is 0). -/
def c6 : EReal := x 7 * c7 x
def c5 : EReal := x 6 * c6 x
def c4 : EReal := x 5 * c5 x
def c3 : EReal := x 4 * c4 x
def c2 : EReal := x 3 * c3 x
def c1 : EReal := x 2 * c2 x

/-- Difference bit 7: e7 XOR 1 (the carry-in). -/
def s7 : EReal := (x 8 + 1) - 2 * x 8
/-- Difference bit 6: e6 XOR c7; and so on up to bit 1. -/
def s6 : EReal := xor2 (x 7) (c7 x)
def s5 : EReal := xor2 (x 6) (c6 x)
def s4 : EReal := xor2 (x 5) (c5 x)
def s3 : EReal := xor2 (x 4) (c4 x)
def s2 : EReal := xor2 (x 3) (c3 x)
def s1 : EReal := xor2 (x 2) (c2 x)
/-- Difference bit 0, the one position that adds a 1 bit: (e0 XOR 1) XOR c1. -/
def s0 : EReal := xor2 ((x 1 + 1) - 2 * x 1) (c1 x)

/-- The five high difference bits are all zero. -/
def hz : EReal := not1 (s0 x) * not1 (s1 x) * not1 (s2 x) * not1 (s3 x) * not1 (s4 x)

/-- The difference is 0, 1, 2, 3, 4. -/
def is0 : EReal := hz x * (not1 (s5 x) * (not1 (s6 x) * not1 (s7 x)))
def is1 : EReal := hz x * (not1 (s5 x) * (not1 (s6 x) * s7 x))
def is2 : EReal := hz x * (not1 (s5 x) * (s6 x * not1 (s7 x)))
def is3 : EReal := hz x * (not1 (s5 x) * (s6 x * s7 x))
def is4 : EReal := hz x * (s5 x * (not1 (s6 x) * not1 (s7 x)))

/-- Bit b of the result: the OR over the shifts s ≥ b of "the difference is s" AND (1 if s = b, else mantissa bit s - 1 - b). -/
def b0 : EReal := or2 (or2 (or2 (or2 (is0 x) (is1 x * x 9)) (is2 x * x 10)) (is3 x * x 11)) (is4 x * x 12)
def b1 : EReal := or2 (or2 (or2 (is1 x) (is2 x * x 9)) (is3 x * x 10)) (is4 x * x 11)
def b2 : EReal := or2 (or2 (is2 x) (is3 x * x 9)) (is4 x * x 10)
def b3 : EReal := or2 (is3 x) (is4 x * x 9)
def b4 : EReal := is4 x

/-- The five result bits, most significant first. -/
def out : Fin 5 → EReal := ![b4 x, b3 x, b2 x, b1 x, b0 x]

end

/-- The whole result array as a function of the whole input array: at `(b, s, k)` bit `k` of the row `(b, s, ·)`. -/
def G (X : (⟨3, ![1024, 4096, 32]⟩ : Shape).Idx → EReal) : (⟨3, ![1024, 4096, 5]⟩ : Shape).Idx → EReal :=
  fun i => out (fun n => X (ValueIdx.ix3 (i 0) (i 1) n)) (i 2)

end Cert.Spike

end
-- ==== Proof.Layout.lean ====
/-
  Reading the two programs' re-layouts at an index.

  The kernel turns a [a, b, n] block into n planes of shape [a, b] (a transpose to [n, a, b], a unit slice along the
  leading axis, the unit axis dropped) and, at the end, stacks five [a, b] planes into a [5, a, b] value that it
  transposes to [a, b, 5].  The host program cuts columns out of the last axis of a [A, B, N] array (a slice of a
  slice) and, at the end, puts five [A, B, 1] columns side by side along the last axis.
-/
import Idealize.ShloMosaic.Lib.Pipeline.Value
import Idealize.ShloMosaic.Lib.ValueIdx
import Idealize.ShloMosaic.Lib.ValueLayout

noncomputable section

namespace Cert.Spike.Layout

open Idealize.ShloMosaic Idealize.ShloMosaic.ValueIdx

variable {α : Type}

/-- Plane `k` of a block: transpose [a, b, n] to [n, a, b], take the unit slice at `k` along the leading axis and
    drop that axis; at `(p, q)` this is the block at `(p, q, k)`. -/
theorem plane_read {a b n : ℕ} (P : (⟨3, ![a, b, n]⟩ : Shape).Idx → α) (k : ℕ) (hk : k < n)
    (ht : (⟨3, ![a, b, n]⟩ : Shape).Transposes [2, 0, 1] ⟨3, ![n, a, b]⟩)
    (hs : (⟨3, ![n, a, b]⟩ : Shape).Slices ![k, 0, 0] ⟨3, ![1, a, b]⟩)
    (hc : (⟨3, ![1, a, b]⟩ : Shape).ShapeCasts ⟨2, ![a, b]⟩) (j : (⟨2, ![a, b]⟩ : Shape).Idx) :
    shapeCast ⟨2, ![a, b]⟩ (extractStridedSlice ⟨3, ![1, a, b]⟩ ![k, 0, 0]
        (transpose ⟨3, ![n, a, b]⟩ [2, 0, 1] P ht) hs) hc j
      = P (ix3 (j 0) (j 1) ⟨k, hk⟩) := by
  obtain ⟨p, q, rfl⟩ : ∃ (p : Fin a) (q : Fin b), j = ix2 p q := ⟨j 0, j 1, eq_ix2 j⟩
  refine (shapeCast_1ab_ab_apply _ hc p q).trans ?_
  refine (extractStridedSlice_apply ![k, 0, 0] _ hs _ (ix3 (⟨k, hk⟩ : Fin n) p q) (fun c => ?_)).trans ?_
  · match c with
    | ⟨0, _⟩ => show k = k + 0; rfl
    | ⟨1, _⟩ => show p.val = 0 + p.val; omega
    | ⟨2, _⟩ => show q.val = 0 + q.val; omega
  · exact transpose_apply [2, 0, 1] P ht _ (ix3 p q (⟨k, hk⟩ : Fin n))
      (fun c => match c with | ⟨0, _⟩ => rfl | ⟨1, _⟩ => rfl | ⟨2, _⟩ => rfl)

/-- Five [a, b] planes stacked along a new leading axis and transposed to [a, b, 5]: at `(p, q, k)` this is plane
    `k` at `(p, q)`. -/
theorem stack_read {a b : ℕ} (u0 u1 u2 u3 u4 : (⟨2, ![a, b]⟩ : Shape).Idx → α)
    (hc : (⟨2, ![a, b]⟩ : Shape).ShapeCasts ⟨3, ![1, a, b]⟩)
    (hcat : Shape.Concatenates [(⟨3, ![1, a, b]⟩ : Shape), ⟨3, ![1, a, b]⟩, ⟨3, ![1, a, b]⟩, ⟨3, ![1, a, b]⟩,
      ⟨3, ![1, a, b]⟩] ⟨3, ![5, a, b]⟩ 0)
    (ht : (⟨3, ![5, a, b]⟩ : Shape).Transposes [1, 2, 0] ⟨3, ![a, b, 5]⟩) (y : (⟨3, ![a, b, 5]⟩ : Shape).Idx) :
    transpose ⟨3, ![a, b, 5]⟩ [1, 2, 0] (concatenate ⟨3, ![5, a, b]⟩ 0
        [⟨⟨3, ![1, a, b]⟩, shapeCast ⟨3, ![1, a, b]⟩ u0 hc⟩, ⟨⟨3, ![1, a, b]⟩, shapeCast ⟨3, ![1, a, b]⟩ u1 hc⟩,
         ⟨⟨3, ![1, a, b]⟩, shapeCast ⟨3, ![1, a, b]⟩ u2 hc⟩, ⟨⟨3, ![1, a, b]⟩, shapeCast ⟨3, ![1, a, b]⟩ u3 hc⟩,
         ⟨⟨3, ![1, a, b]⟩, shapeCast ⟨3, ![1, a, b]⟩ u4 hc⟩] hcat) ht y
      = (![u0, u1, u2, u3, u4] (y 2)) (ix2 (y 0) (y 1)) := by
  obtain ⟨p, q, k, rfl⟩ : ∃ (p : Fin a) (q : Fin b) (k : Fin 5), y = ix3 p q k := ⟨y 0, y 1, y 2, eq_ix3 y⟩
  refine (transpose_apply [1, 2, 0] _ ht _ (ix3 k p q)
    (fun c => match c with | ⟨0, _⟩ => rfl | ⟨1, _⟩ => rfl | ⟨2, _⟩ => rfl)).trans ?_
  let f : Fin 5 → ((⟨3, ![1, a, b]⟩ : Shape).Idx → α) := fun n => shapeCast ⟨3, ![1, a, b]⟩ (![u0, u1, u2, u3, u4] n) hc
  refine (concatenate_ofFn_unit_apply (t := ⟨3, ![5, a, b]⟩) (s₁ := ⟨3, ![1, a, b]⟩) (0 : Fin 3) f hcat rfl rfl
    (ix3 k p q) k rfl (ix3 (0 : Fin 1) p q) (fun c hc' => ?_)).trans ?_
  · match c with
    | ⟨0, _⟩ => exact absurd rfl hc'
    | ⟨1, _⟩ => rfl
    | ⟨2, _⟩ => rfl
  · exact shapeCast_ab_1ab_apply _ hc 0 p q

/-- A column of a column window: the unit slice at `k` of the window `[o, o + M)` of the last axis of a [A, B, N]
    array, at `(r, s, ·)`, is the array at `(r, s, o + k)`. -/
theorem column_read {A B N M : ℕ} (X : (⟨3, ![A, B, N]⟩ : Shape).Idx → α) (o k : ℕ) (hk : o + k < N)
    (h0 : (⟨3, ![A, B, N]⟩ : Shape).Slices ![0, 0, o] ⟨3, ![A, B, M]⟩)
    (h1 : (⟨3, ![A, B, M]⟩ : Shape).Slices ![0, 0, k] ⟨3, ![A, B, 1]⟩) (hkM : k < M)
    (i : (⟨3, ![A, B, 1]⟩ : Shape).Idx) :
    extractStridedSlice ⟨3, ![A, B, 1]⟩ ![0, 0, k] (extractStridedSlice ⟨3, ![A, B, M]⟩ ![0, 0, o] X h0) h1 i
      = X (ix3 (i 0) (i 1) ⟨o + k, hk⟩) := by
  obtain ⟨r, s, z, rfl⟩ : ∃ (r : Fin A) (s : Fin B) (z : Fin 1), i = ix3 r s z := ⟨i 0, i 1, i 2, eq_ix3 i⟩
  have hz : z.val = 0 := by omega
  refine (extractStridedSlice_apply ![0, 0, k] _ h1 _ (ix3 r s (⟨k, hkM⟩ : Fin M)) (fun c => ?_)).trans ?_
  · match c with
    | ⟨0, _⟩ => show r.val = 0 + r.val; omega
    | ⟨1, _⟩ => show s.val = 0 + s.val; omega
    | ⟨2, _⟩ => show k = k + z.val; omega
  · refine extractStridedSlice_apply ![0, 0, o] X h0 _ (ix3 r s (⟨o + k, hk⟩ : Fin N)) (fun c => ?_)
    match c with
    | ⟨0, _⟩ => show r.val = 0 + r.val; omega
    | ⟨1, _⟩ => show s.val = 0 + s.val; omega
    | ⟨2, _⟩ => show o + k = o + k; rfl

/-- Five [A, B, 1] columns side by side along the last axis: at `(r, s, k)` this is column `k` at `(r, s, 0)`. -/
theorem columns_read {A B : ℕ} (u0 u1 u2 u3 u4 : (⟨3, ![A, B, 1]⟩ : Shape).Idx → α)
    (hcat : Shape.Concatenates [(⟨3, ![A, B, 1]⟩ : Shape), ⟨3, ![A, B, 1]⟩, ⟨3, ![A, B, 1]⟩, ⟨3, ![A, B, 1]⟩,
      ⟨3, ![A, B, 1]⟩] ⟨3, ![A, B, 5]⟩ 2) (i : (⟨3, ![A, B, 5]⟩ : Shape).Idx) :
    concatenate ⟨3, ![A, B, 5]⟩ 2
        [⟨⟨3, ![A, B, 1]⟩, u0⟩, ⟨⟨3, ![A, B, 1]⟩, u1⟩, ⟨⟨3, ![A, B, 1]⟩, u2⟩, ⟨⟨3, ![A, B, 1]⟩, u3⟩,
         ⟨⟨3, ![A, B, 1]⟩, u4⟩] hcat i
      = (![u0, u1, u2, u3, u4] (i 2)) (ix3 (i 0) (i 1) (0 : Fin 1)) := by
  obtain ⟨r, s, k, rfl⟩ : ∃ (r : Fin A) (s : Fin B) (k : Fin 5), i = ix3 r s k := ⟨i 0, i 1, i 2, eq_ix3 i⟩
  refine concatenate_ofFn_unit_apply (t := ⟨3, ![A, B, 5]⟩) (s₁ := ⟨3, ![A, B, 1]⟩) (2 : Fin 3)
    (![u0, u1, u2, u3, u4]) hcat rfl rfl (ix3 r s k) k rfl (ix3 r s (0 : Fin 1)) (fun c hc' => ?_)
  match c with
  | ⟨0, _⟩ => rfl
  | ⟨1, _⟩ => rfl
  | ⟨2, _⟩ => exact absurd rfl hc'

/-- Entry `k` of a five-entry tuple, for each literal `k`. -/
theorem pick0 {β : Type} (u0 u1 u2 u3 u4 : β) (h : 0 < 5) : ![u0, u1, u2, u3, u4] (⟨0, h⟩ : Fin 5) = u0 := rfl
theorem pick1 {β : Type} (u0 u1 u2 u3 u4 : β) (h : 1 < 5) : ![u0, u1, u2, u3, u4] (⟨1, h⟩ : Fin 5) = u1 := rfl
theorem pick2 {β : Type} (u0 u1 u2 u3 u4 : β) (h : 2 < 5) : ![u0, u1, u2, u3, u4] (⟨2, h⟩ : Fin 5) = u2 := rfl
theorem pick3 {β : Type} (u0 u1 u2 u3 u4 : β) (h : 3 < 5) : ![u0, u1, u2, u3, u4] (⟨3, h⟩ : Fin 5) = u3 := rfl
theorem pick4 {β : Type} (u0 u1 u2 u3 u4 : β) (h : 4 < 5) : ![u0, u1, u2, u3, u4] (⟨4, h⟩ : Fin 5) = u4 := rfl

end Cert.Spike.Layout

end
-- ==== Proof.KernelValue.lean ====
/-
  The kernel program's result array, at the ideal instance, as one function of its input array.

  At every grid point the body loads a [128, 128, 32] block, cuts twelve [128, 128] planes out of it, runs the gate
  arithmetic plane-wise (every operation acts position by position), stacks the five result planes and stores them as a
  [128, 128, 5] block.  So the stored block at `(p, q, k)` is result bit `k` of the input row `(p, q, ·)` of the loaded
  block, and since the 8 × 32 blocks tile the arrays, the whole result array is `G` of the whole input array.
-/
import proofs.«129797_j76312978916076_2_alg».proof.Proof.Gen.KernelIdeal.Frame
import proofs.«129797_j76312978916076_2_alg».proof.Proof.Spec
import proofs.«129797_j76312978916076_2_alg».proof.Proof.Layout
import Idealize.ShloMosaic.Lib.Pipeline.Value
import Idealize.ShloMosaic.Lib.ValueIdx

noncomputable section

namespace Cert.KernelIdeal.SpikeValue

open Cert.KernelIdeal Cert.KernelIdeal.Gen Idealize.ShloMosaic Idealize.ShloMosaic.TcCoe Idealize.SL.Sem
open Idealize.ShloMosaic.ValueIdx
open Idealize.ShloMosaic.Pipeline (Dat)
open Cert.Spike

/-! ## The twelve planes the body cuts out of its block

Plane `n` of the block, at `(p, q)`, is the block at `(p, q, n)`; the change of format to bf16 is the identity on the
extended reals. -/

section
variable (P0 : Vec Ideal S128x128x32 .f32) (j : S128x128.Idx)

theorem plane1 : k0_pay3 P0 j = P0 (ix3 (j 0) (j 1) 1) := Layout.plane_read P0 1 (by norm_num) _ Facts₀.slices_S32x128x128_o1_0_0_S1x128x128 _ j
theorem plane2 : k0_pay4 P0 j = P0 (ix3 (j 0) (j 1) 2) := Layout.plane_read P0 2 (by norm_num) _ Facts₀.slices_S32x128x128_o2_0_0_S1x128x128 _ j
theorem plane3 : k0_pay5 P0 j = P0 (ix3 (j 0) (j 1) 3) := Layout.plane_read P0 3 (by norm_num) _ Facts₀.slices_S32x128x128_o3_0_0_S1x128x128 _ j
theorem plane4 : k0_pay6 P0 j = P0 (ix3 (j 0) (j 1) 4) := Layout.plane_read P0 4 (by norm_num) _ Facts₀.slices_S32x128x128_o4_0_0_S1x128x128 _ j
theorem plane5 : k0_pay7 P0 j = P0 (ix3 (j 0) (j 1) 5) := Layout.plane_read P0 5 (by norm_num) _ Facts₀.slices_S32x128x128_o5_0_0_S1x128x128 _ j
theorem plane6 : k0_pay8 P0 j = P0 (ix3 (j 0) (j 1) 6) := Layout.plane_read P0 6 (by norm_num) _ Facts₀.slices_S32x128x128_o6_0_0_S1x128x128 _ j
theorem plane7 : k0_pay9 P0 j = P0 (ix3 (j 0) (j 1) 7) := Layout.plane_read P0 7 (by norm_num) _ Facts₀.slices_S32x128x128_o7_0_0_S1x128x128 _ j
theorem plane8 : k0_pay10 P0 j = P0 (ix3 (j 0) (j 1) 8) := Layout.plane_read P0 8 (by norm_num) _ Facts₀.slices_S32x128x128_o8_0_0_S1x128x128 _ j
theorem plane9 : k0_pay11 P0 j = P0 (ix3 (j 0) (j 1) 9) := Layout.plane_read P0 9 (by norm_num) _ Facts₀.slices_S32x128x128_o9_0_0_S1x128x128 _ j
theorem plane10 : k0_pay12 P0 j = P0 (ix3 (j 0) (j 1) 10) := Layout.plane_read P0 10 (by norm_num) _ Facts₀.slices_S32x128x128_o10_0_0_S1x128x128 _ j
theorem plane11 : k0_pay13 P0 j = P0 (ix3 (j 0) (j 1) 11) := Layout.plane_read P0 11 (by norm_num) _ Facts₀.slices_S32x128x128_o11_0_0_S1x128x128 _ j
theorem plane12 : k0_pay14 P0 j = P0 (ix3 (j 0) (j 1) 12) := Layout.plane_read P0 12 (by norm_num) _ Facts₀.slices_S32x128x128_o12_0_0_S1x128x128 _ j

end

theorem hz3 : (![0, 0, 0] : Fin 3 → Nat) = fun _ => 0 := funext fun a => by fin_cases a <;> rfl

set_option maxHeartbeats 1000000 in
theorem block_value (P0 : Vec Ideal S128x128x32 .f32) (y : S128x128x5.Idx) :
    out0_1 P0 y = out (fun n => P0 (ix3 (y 0) (y 1) n)) (y 2) := by
  obtain ⟨p, q, k, rfl⟩ : ∃ (p : Fin 128) (q : Fin 128) (k : Fin 5), y = ix3 p q k := ⟨y 0, y 1, y 2, eq_ix3 y⟩
  unfold out0_1
  rw [View.canon_unit_zero hz3]
  simp only [View.ld_unit_zero (S := S128x128x32) hz3]
  simp only [k0_pay1]
  refine (Layout.stack_read _ _ _ _ _ _ _ _ (ix3 p q k)).trans ?_
  show (![_, _, _, _, _] : Fin 5 → S128x128.Idx → Ideal .f32) k (ix2 p q) = out (fun n => P0 (ix3 p q n)) k
  match k with
  | ⟨0, _⟩ =>
    rw [Layout.pick0]
    simp only [extf_apply, truncf_apply, addf_apply, mulf_apply, subf_apply,
      broadcast_apply, Ideal.ofBits_def, bf16_one, bf16_two, mul_one,
      k0_pay15, k0_pay16, k0_pay17, k0_pay18, k0_pay19, k0_pay20, k0_pay21, k0_pay22, k0_pay23, k0_pay24, k0_pay25, k0_pay26,
      k0_pay27, k0_pay28, k0_pay29, k0_pay30, k0_pay31, k0_pay32, k0_pay33, k0_pay34, k0_pay35, k0_pay36, k0_pay37, k0_pay38,
      k0_pay39, k0_pay40, k0_pay41, k0_pay42, k0_pay43,
      plane1, plane2, plane3, plane4, plane5, plane6, plane7, plane8, plane9, plane10, plane11, plane12,
      out, Layout.pick0, Layout.pick1, Layout.pick2, Layout.pick3, Layout.pick4, b0, b1, b2, b3, b4, is0, is1, is2, is3, is4, hz, s0, s1, s2, s3, s4, s5, s6, s7, c1, c2, c3, c4, c5, c6, c7,
      xor2, or2, not1]
  | ⟨1, _⟩ =>
    rw [Layout.pick1]
    simp only [extf_apply, truncf_apply, addf_apply, mulf_apply, subf_apply,
      broadcast_apply, Ideal.ofBits_def, bf16_one, bf16_two, mul_one,
      k0_pay15, k0_pay16, k0_pay17, k0_pay18, k0_pay19, k0_pay20, k0_pay21, k0_pay22, k0_pay23, k0_pay24, k0_pay25, k0_pay26,
      k0_pay27, k0_pay28, k0_pay29, k0_pay30, k0_pay31, k0_pay32, k0_pay33, k0_pay34, k0_pay35, k0_pay36, k0_pay37, k0_pay38,
      k0_pay39, k0_pay40, k0_pay41, k0_pay42, k0_pay43,
      plane1, plane2, plane3, plane4, plane5, plane6, plane7, plane8, plane9, plane10, plane11, plane12,
      out, Layout.pick0, Layout.pick1, Layout.pick2, Layout.pick3, Layout.pick4, b0, b1, b2, b3, b4, is0, is1, is2, is3, is4, hz, s0, s1, s2, s3, s4, s5, s6, s7, c1, c2, c3, c4, c5, c6, c7,
      xor2, or2, not1]
  | ⟨2, _⟩ =>
    rw [Layout.pick2]
    simp only [extf_apply, truncf_apply, addf_apply, mulf_apply, subf_apply,
      broadcast_apply, Ideal.ofBits_def, bf16_one, bf16_two, mul_one,
      k0_pay15, k0_pay16, k0_pay17, k0_pay18, k0_pay19, k0_pay20, k0_pay21, k0_pay22, k0_pay23, k0_pay24, k0_pay25, k0_pay26,
      k0_pay27, k0_pay28, k0_pay29, k0_pay30, k0_pay31, k0_pay32, k0_pay33, k0_pay34, k0_pay35, k0_pay36, k0_pay37, k0_pay38,
      k0_pay39, k0_pay40, k0_pay41, k0_pay42, k0_pay43,
      plane1, plane2, plane3, plane4, plane5, plane6, plane7, plane8, plane9, plane10, plane11, plane12,
      out, Layout.pick0, Layout.pick1, Layout.pick2, Layout.pick3, Layout.pick4, b0, b1, b2, b3, b4, is0, is1, is2, is3, is4, hz, s0, s1, s2, s3, s4, s5, s6, s7, c1, c2, c3, c4, c5, c6, c7,
      xor2, or2, not1]
  | ⟨3, _⟩ =>
    rw [Layout.pick3]
    simp only [extf_apply, truncf_apply, addf_apply, mulf_apply, subf_apply,
      broadcast_apply, Ideal.ofBits_def, bf16_one, bf16_two, mul_one,
      k0_pay15, k0_pay16, k0_pay17, k0_pay18, k0_pay19, k0_pay20, k0_pay21, k0_pay22, k0_pay23, k0_pay24, k0_pay25, k0_pay26,
      k0_pay27, k0_pay28, k0_pay29, k0_pay30, k0_pay31, k0_pay32, k0_pay33, k0_pay34, k0_pay35, k0_pay36, k0_pay37, k0_pay38,
      k0_pay39, k0_pay40, k0_pay41, k0_pay42, k0_pay43,
      plane1, plane2, plane3, plane4, plane5, plane6, plane7, plane8, plane9, plane10, plane11, plane12,
      out, Layout.pick0, Layout.pick1, Layout.pick2, Layout.pick3, Layout.pick4, b0, b1, b2, b3, b4, is0, is1, is2, is3, is4, hz, s0, s1, s2, s3, s4, s5, s6, s7, c1, c2, c3, c4, c5, c6, c7,
      xor2, or2, not1]
  | ⟨4, _⟩ =>
    rw [Layout.pick4]
    simp only [extf_apply, truncf_apply, addf_apply, mulf_apply, subf_apply,
      broadcast_apply, Ideal.ofBits_def, bf16_one, bf16_two, mul_one,
      k0_pay15, k0_pay16, k0_pay17, k0_pay18, k0_pay19, k0_pay20, k0_pay21, k0_pay22, k0_pay23, k0_pay24, k0_pay25, k0_pay26,
      k0_pay27, k0_pay28, k0_pay29, k0_pay30, k0_pay31, k0_pay32, k0_pay33, k0_pay34, k0_pay35, k0_pay36, k0_pay37, k0_pay38,
      k0_pay39, k0_pay40, k0_pay41, k0_pay42, k0_pay43,
      plane1, plane2, plane3, plane4, plane5, plane6, plane7, plane8, plane9, plane10, plane11, plane12,
      out, Layout.pick0, Layout.pick1, Layout.pick2, Layout.pick3, Layout.pick4, b0, b1, b2, b3, b4, is0, is1, is2, is3, is4, hz, s0, s1, s2, s3, s4, s5, s6, s7, c1, c2, c3, c4, c5, c6, c7,
      xor2, or2, not1]

/-! ## From blocks to the whole array

Grid point `t` sits over rows `[128 a, 128 a + 128)` and columns `[128 b, 128 b + 128)` for its block coordinates
`(a, b)`, with every entry of the last axis: its input block and its output block are over the same rows and columns,
and the 8 × 32 output blocks tile the result array. -/

variable (m : (ℓ : Loc nD τ sig) → Buf (Elt Ideal) ℓ) (ρ : Dev nD → PrngReg)

/-- The printed index maps, decided over the grid: the input block and the output block of a point have the same row and
    column block coordinates, and both start at 0 on the last axis. -/
theorem idx_facts : ∀ t : Fin cfg0.N, win0_0.index t (0 : Fin 3) = win0_1.index t (0 : Fin 3)
    ∧ win0_0.index t (1 : Fin 3) = win0_1.index t (1 : Fin 3)
    ∧ win0_0.index t (2 : Fin 3) = 0 ∧ win0_1.index t (2 : Fin 3) = 0 :=
  (by decide +kernel : ∀ t : Fin grid0.N, _)

/-- Every pair of block coordinates is some point's. -/
theorem idx_onto : ∀ (q0 : Fin 8) (q1 : Fin 32), ∃ t : Fin cfg0.N, win0_1.index t = ![q0.val, q1.val, 0] :=
  (by decide +kernel : ∀ (q0 : Fin 8) (q1 : Fin 32), ∃ t : Fin grid0.N, win0_1.index t = ![q0.val, q1.val, 0])

/-- What point `t` writes back is block `t` of `G` of the input array. -/
theorem flushed_eq (c : Dev nD) (t : Fin cfg0.N) :
    (dats m 0 c).flushed 1 t = ((cfg0.win 1).blk t).view.read (Elt Ideal) (G (V m c main_arg0)) := by
  show (cfg0.win 1).cut (grid0.coords t) ((dats m 0 c).after 1 t) = _
  rw [after0_1]
  obtain ⟨e0, e1, e2, e3⟩ := idx_facts t
  funext y
  show out0_1 (iblk m c 0 t) y = G (V m c main_arg0) (((cfg0.win 1).blk t).view.emb y)
  refine (block_value (iblk m c 0 t) y).trans ?_
  have hf : (fun n : Fin 32 => iblk m c 0 t (ix3 (y 0) (y 1) n))
      = fun n => V m c main_arg0 (ix3 ((((cfg0.win 1).blk t).view.emb y) 0) ((((cfg0.win 1).blk t).view.emb y) 1) n) := by
    funext n
    show V m c main_arg0 (((cfg0.win 0).blk t).view.emb (ix3 (y 0) (y 1) n)) = _
    refine congrArg (V m c main_arg0) (funext fun a => Fin.ext ?_)
    match a with
    | ⟨0, _⟩ =>
      show win0_0.index t (0 : Fin 3) * 128 + 1 * (y 0).val = win0_1.index t (0 : Fin 3) * 128 + 1 * (y 0).val
      omega
    | ⟨1, _⟩ =>
      show win0_0.index t (1 : Fin 3) * 128 + 1 * (y 1).val = win0_1.index t (1 : Fin 3) * 128 + 1 * (y 1).val
      omega
    | ⟨2, _⟩ =>
      show win0_0.index t (2 : Fin 3) * 32 + 1 * n.val = n.val
      omega
  have hk : y 2 = (((cfg0.win 1).blk t).view.emb y) 2 :=
    Fin.ext (by show (y 2).val = win0_1.index t (2 : Fin 3) * 5 + 1 * (y 2).val; omega)
  exact congrArg₂ out hf hk

/-- An index of the result array is in point `t`'s block iff each coordinate is in the block's range on its axis. -/
theorem mem_blk (t : Fin cfg0.N) (i : S1024x4096x5.Idx) :
    i ∈ ((cfg0.win 1).blk t).view.set ↔ ∀ a : Fin 3, win0_1.index t a * S128x128x5.size a ≤ (i a).val
      ∧ (i a).val < win0_1.index t a * S128x128x5.size a + S128x128x5.size a := by
  show i ∈ ((View.whole main_v0).slice (win0_1.rect t)).set ↔ _
  rw [View.set_slice_whole, Rect.mem_set_unit]
  exact Iff.rfl

/-- Every index of the result array is in some point's block: the block of `(r, s, k)` is the one with block coordinates
    `(r / 128, s / 128)`. -/
theorem cover (i : S1024x4096x5.Idx) :
    ∃ t : Fin cfg0.N, (cfg0.win 1).flush t = true ∧ i ∈ ((cfg0.win 1).blk t).view.set := by
  have hi0 : (i 0).val < 1024 := (i 0).isLt
  have hi1 : (i 1).val < 4096 := (i 1).isLt
  have hi2 : (i 2).val < 5 := (i 2).isLt
  obtain ⟨t, ht⟩ := idx_onto ⟨(i 0).val / 128, by omega⟩ ⟨(i 1).val / 128, by omega⟩
  have q0 : win0_1.index t (0 : Fin 3) = (i 0).val / 128 := congrFun ht 0
  have q1 : win0_1.index t (1 : Fin 3) = (i 1).val / 128 := congrFun ht 1
  have q2 : win0_1.index t (2 : Fin 3) = 0 := congrFun ht 2
  refine ⟨t, flush0_1 t, ?_⟩
  rw [mem_blk]
  intro a
  match a with
  | ⟨0, _⟩ =>
    show win0_1.index t (0 : Fin 3) * 128 ≤ (i 0).val ∧ (i 0).val < win0_1.index t (0 : Fin 3) * 128 + 128
    omega
  | ⟨1, _⟩ =>
    show win0_1.index t (1 : Fin 3) * 128 ≤ (i 1).val ∧ (i 1).val < win0_1.index t (1 : Fin 3) * 128 + 128
    omega
  | ⟨2, _⟩ =>
    show win0_1.index t (2 : Fin 3) * 5 ≤ (i 2).val ∧ (i 2).val < win0_1.index t (2 : Fin 3) * 5 + 5
    omega

/-- The result array after the run is `G` of the input array. -/
theorem final (c : Dev nD) : (dats m 0 c).arrAt 1 cfg0.N = G (V m c main_arg0) :=
  (dats m 0 c).arrAt_eq_of_cover 1 (G (V m c main_arg0)) (fun t _ => flushed_eq m c t) cover

/-- Every weakly fair execution of the kernel program terminates with the result array at `G` of the input array and
    the input array unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨((h c).1 1).trans (final m c),
      ((h c).1 0).trans (((dats m 0 c).arrAt_in 0 rfl _).trans ((A_eq m c 0).trans (V_main_arg0 m c)))⟩)
    (run_main m ρ)

end Cert.KernelIdeal.SpikeValue

end
-- ==== Proof.ReferenceValue.lean ====
/-
  The host program's result array, at the ideal instance, as one function of its input array.

  The host program cuts twelve [1024, 4096, 1] columns out of the last axis of the input (eight from the window
  `[1, 9)`, four from the window `[9, 32)`), runs the gate arithmetic on whole columns (every operation acts position
  by position; the literals 0, 1 and 2 are broadcast scalars) and puts the five result columns side by side.  Read at
  `(r, s, k)` its result is therefore result bit `k` of the input row `(r, s, ·)`.  Where it adds a literal 0 bit or
  multiplies by the column of ones, the laws `x + 0 = x`, `x * 0 = 0`, `0 + y = y`, `y - 0 = y` and `x * 1 = x` of the
  extended reals (which hold at the infinities too) bring its expression to the one of Proof/Spec.lean.
-/
import proofs.«129797_j76312978916076_2_alg».proof.Proof.Gen.ReferenceIdeal.Run
import proofs.«129797_j76312978916076_2_alg».proof.Proof.Spec
import proofs.«129797_j76312978916076_2_alg».proof.Proof.Layout
import Idealize.ShloMosaic.Lib.Pipeline.Value
import Idealize.ShloMosaic.Lib.ValueIdx

noncomputable section

namespace Cert.ReferenceIdeal.SpikeValue

open Cert.ReferenceIdeal Cert.ReferenceIdeal.Gen Cert.ReferenceIdeal.Value Idealize.ShloMosaic Idealize.ShloMosaic.TcCoe
open Idealize.SL.Sem Idealize.ShloMosaic.StableHlo Idealize.ShloMosaic.ValueIdx
open Cert.Spike

variable (V0 : Valuation τ sig (Elt Ideal))

/-- The input array, as the host program finds it. -/
abbrev inp : S1024x4096x32.Idx → EReal := V0 (Proc.devRef .tc main_arg0)

/-! ## The twelve columns the host program cuts out of the input

Exponent column `k` is column `k` of the window `[1, 9)` of the last axis, that is, column `1 + k` of the input;
mantissa column `k` is column `k` of the window `[9, 32)`, that is, column `9 + k`. -/

section
variable (i : S1024x4096x1.Idx)

theorem col1 : res_main_v122 V0 i = inp V0 (ix3 (i 0) (i 1) 1) :=
  Layout.column_read (inp V0) 1 0 (by norm_num) Facts₀.slices_S1024x4096x32_S1024x4096x8_0_0_1
    Facts₀.slices_S1024x4096x8_S1024x4096x1_0_0_0 (by norm_num) i
theorem col2 : res_main_v105 V0 i = inp V0 (ix3 (i 0) (i 1) 2) :=
  Layout.column_read (inp V0) 1 1 (by norm_num) Facts₀.slices_S1024x4096x32_S1024x4096x8_0_0_1
    Facts₀.slices_S1024x4096x8_S1024x4096x1_0_0_1 (by norm_num) i
theorem col3 : res_main_v88 V0 i = inp V0 (ix3 (i 0) (i 1) 3) :=
  Layout.column_read (inp V0) 1 2 (by norm_num) Facts₀.slices_S1024x4096x32_S1024x4096x8_0_0_1
    Facts₀.slices_S1024x4096x8_S1024x4096x1_0_0_2 (by norm_num) i
theorem col4 : res_main_v71 V0 i = inp V0 (ix3 (i 0) (i 1) 4) :=
  Layout.column_read (inp V0) 1 3 (by norm_num) Facts₀.slices_S1024x4096x32_S1024x4096x8_0_0_1
    Facts₀.slices_S1024x4096x8_S1024x4096x1_0_0_3 (by norm_num) i
theorem col5 : res_main_v54 V0 i = inp V0 (ix3 (i 0) (i 1) 5) :=
  Layout.column_read (inp V0) 1 4 (by norm_num) Facts₀.slices_S1024x4096x32_S1024x4096x8_0_0_1
    Facts₀.slices_S1024x4096x8_S1024x4096x1_0_0_4 (by norm_num) i
theorem col6 : res_main_v37 V0 i = inp V0 (ix3 (i 0) (i 1) 6) :=
  Layout.column_read (inp V0) 1 5 (by norm_num) Facts₀.slices_S1024x4096x32_S1024x4096x8_0_0_1
    Facts₀.slices_S1024x4096x8_S1024x4096x1_0_0_5 (by norm_num) i
theorem col7 : res_main_v20 V0 i = inp V0 (ix3 (i 0) (i 1) 7) :=
  Layout.column_read (inp V0) 1 6 (by norm_num) Facts₀.slices_S1024x4096x32_S1024x4096x8_0_0_1
    Facts₀.slices_S1024x4096x8_S1024x4096x1_0_0_6 (by norm_num) i
theorem col8 : res_main_v3 V0 i = inp V0 (ix3 (i 0) (i 1) 8) :=
  Layout.column_read (inp V0) 1 7 (by norm_num) Facts₀.slices_S1024x4096x32_S1024x4096x8_0_0_1
    Facts₀.slices_S1024x4096x8_S1024x4096x1_0_0_7 (by norm_num) i
theorem col9 : res_main_v174 V0 i = inp V0 (ix3 (i 0) (i 1) 9) :=
  Layout.column_read (inp V0) 9 0 (by norm_num) Facts₀.slices_S1024x4096x32_S1024x4096x23_0_0_9
    Facts₀.slices_S1024x4096x23_S1024x4096x1_0_0_0 (by norm_num) i
theorem col10 : res_main_v175 V0 i = inp V0 (ix3 (i 0) (i 1) 10) :=
  Layout.column_read (inp V0) 9 1 (by norm_num) Facts₀.slices_S1024x4096x32_S1024x4096x23_0_0_9
    Facts₀.slices_S1024x4096x23_S1024x4096x1_0_0_1 (by norm_num) i
theorem col11 : res_main_v176 V0 i = inp V0 (ix3 (i 0) (i 1) 11) :=
  Layout.column_read (inp V0) 9 2 (by norm_num) Facts₀.slices_S1024x4096x32_S1024x4096x23_0_0_9
    Facts₀.slices_S1024x4096x23_S1024x4096x1_0_0_2 (by norm_num) i
/-- The last mantissa column is used once, inside a product. -/
theorem col12 : res_main_v182 V0
    = mulf (F := Ideal) (s := S1024x4096x1) (φ := .f32) (res_main_v173 V0) (fun j => inp V0 (ix3 (j 0) (j 1) 12)) :=
  congrArg (mulf (F := Ideal) (s := S1024x4096x1) (φ := .f32) (res_main_v173 V0))
    (funext fun j => Layout.column_read (inp V0) 9 3 (by norm_num) Facts₀.slices_S1024x4096x32_S1024x4096x23_0_0_9
      Facts₀.slices_S1024x4096x23_S1024x4096x1_0_0_3 (by norm_num) j)

end

/-! ## The host program's result is `G` of its input -/

set_option maxHeartbeats 2000000 in
theorem result_eq : val5 V0 (Proc.devRef .tc main_v223) = G (inp V0) := by
  funext i
  rw [val5_main_v223]
  refine (Layout.columns_read _ _ _ _ _ _ i).trans ?_
  obtain ⟨r, s, k, rfl⟩ : ∃ (r : Fin 1024) (s : Fin 4096) (k : Fin 5), i = ix3 r s k := ⟨i 0, i 1, i 2, eq_ix3 i⟩
  show (![_, _, _, _, _] : Fin 5 → S1024x4096x1.Idx → Ideal .f32) k (ix3 r s 0) = out (fun n => inp V0 (ix3 r s n)) k
  match k with
  | ⟨0, _⟩ =>
    rw [Layout.pick0]
    simp only [out, Layout.pick0, Layout.pick1, Layout.pick2, Layout.pick3, Layout.pick4,
      addf_apply, mulf_apply, subf_apply, res_main_v2, broadcastInDim, constant_apply, f32_zero, f32_one, f32_two,
      mul_one, mul_zero, add_zero, zero_add, sub_zero,
      res_main_v10, res_main_v15, res_main_v19, res_main_v27, res_main_v32, res_main_v36, res_main_v44, res_main_v49,
      res_main_v53, res_main_v61, res_main_v70, res_main_v78, res_main_v87, res_main_v95, res_main_v104, res_main_v112,
      res_main_v121, res_main_v129, res_main_v150, res_main_v152, res_main_v154, res_main_v158, res_main_v164, res_main_v167,
      res_main_v170, res_main_v173, res_main_v178, res_main_v179, res_main_v180, res_main_v181, res_main_v185, res_main_v188,
      res_main_v191, res_main_v195, res_main_v196, res_main_v197, res_main_v198, res_main_v201, res_main_v204, res_main_v208,
      res_main_v209, res_main_v210, res_main_v213, res_main_v217, res_main_v218,
      col1, col2, col3, col4, col5, col6, col7, col8, col9, col10, col11, col12,
      b0, b1, b2, b3, b4, is0, is1, is2, is3, is4, hz, s0, s1, s2, s3, s4, s5, s6, s7, c1, c2, c3, c4, c5, c6, c7,
      xor2, or2, not1]
  | ⟨1, _⟩ =>
    rw [Layout.pick1]
    simp only [out, Layout.pick0, Layout.pick1, Layout.pick2, Layout.pick3, Layout.pick4,
      addf_apply, mulf_apply, subf_apply, res_main_v2, broadcastInDim, constant_apply, f32_zero, f32_one, f32_two,
      mul_one, mul_zero, add_zero, zero_add, sub_zero,
      res_main_v10, res_main_v15, res_main_v19, res_main_v27, res_main_v32, res_main_v36, res_main_v44, res_main_v49,
      res_main_v53, res_main_v61, res_main_v70, res_main_v78, res_main_v87, res_main_v95, res_main_v104, res_main_v112,
      res_main_v121, res_main_v129, res_main_v150, res_main_v152, res_main_v154, res_main_v158, res_main_v164, res_main_v167,
      res_main_v170, res_main_v173, res_main_v178, res_main_v179, res_main_v180, res_main_v181, res_main_v185, res_main_v188,
      res_main_v191, res_main_v195, res_main_v196, res_main_v197, res_main_v198, res_main_v201, res_main_v204, res_main_v208,
      res_main_v209, res_main_v210, res_main_v213, res_main_v217, res_main_v218,
      col1, col2, col3, col4, col5, col6, col7, col8, col9, col10, col11, col12,
      b0, b1, b2, b3, b4, is0, is1, is2, is3, is4, hz, s0, s1, s2, s3, s4, s5, s6, s7, c1, c2, c3, c4, c5, c6, c7,
      xor2, or2, not1]
  | ⟨2, _⟩ =>
    rw [Layout.pick2]
    simp only [out, Layout.pick0, Layout.pick1, Layout.pick2, Layout.pick3, Layout.pick4,
      addf_apply, mulf_apply, subf_apply, res_main_v2, broadcastInDim, constant_apply, f32_zero, f32_one, f32_two,
      mul_one, mul_zero, add_zero, zero_add, sub_zero,
      res_main_v10, res_main_v15, res_main_v19, res_main_v27, res_main_v32, res_main_v36, res_main_v44, res_main_v49,
      res_main_v53, res_main_v61, res_main_v70, res_main_v78, res_main_v87, res_main_v95, res_main_v104, res_main_v112,
      res_main_v121, res_main_v129, res_main_v150, res_main_v152, res_main_v154, res_main_v158, res_main_v164, res_main_v167,
      res_main_v170, res_main_v173, res_main_v178, res_main_v179, res_main_v180, res_main_v181, res_main_v185, res_main_v188,
      res_main_v191, res_main_v195, res_main_v196, res_main_v197, res_main_v198, res_main_v201, res_main_v204, res_main_v208,
      res_main_v209, res_main_v210, res_main_v213, res_main_v217, res_main_v218,
      col1, col2, col3, col4, col5, col6, col7, col8, col9, col10, col11, col12,
      b0, b1, b2, b3, b4, is0, is1, is2, is3, is4, hz, s0, s1, s2, s3, s4, s5, s6, s7, c1, c2, c3, c4, c5, c6, c7,
      xor2, or2, not1]
  | ⟨3, _⟩ =>
    rw [Layout.pick3]
    simp only [out, Layout.pick0, Layout.pick1, Layout.pick2, Layout.pick3, Layout.pick4,
      addf_apply, mulf_apply, subf_apply, res_main_v2, broadcastInDim, constant_apply, f32_zero, f32_one, f32_two,
      mul_one, mul_zero, add_zero, zero_add, sub_zero,
      res_main_v10, res_main_v15, res_main_v19, res_main_v27, res_main_v32, res_main_v36, res_main_v44, res_main_v49,
      res_main_v53, res_main_v61, res_main_v70, res_main_v78, res_main_v87, res_main_v95, res_main_v104, res_main_v112,
      res_main_v121, res_main_v129, res_main_v150, res_main_v152, res_main_v154, res_main_v158, res_main_v164, res_main_v167,
      res_main_v170, res_main_v173, res_main_v178, res_main_v179, res_main_v180, res_main_v181, res_main_v185, res_main_v188,
      res_main_v191, res_main_v195, res_main_v196, res_main_v197, res_main_v198, res_main_v201, res_main_v204, res_main_v208,
      res_main_v209, res_main_v210, res_main_v213, res_main_v217, res_main_v218,
      col1, col2, col3, col4, col5, col6, col7, col8, col9, col10, col11, col12,
      b0, b1, b2, b3, b4, is0, is1, is2, is3, is4, hz, s0, s1, s2, s3, s4, s5, s6, s7, c1, c2, c3, c4, c5, c6, c7,
      xor2, or2, not1]
  | ⟨4, _⟩ =>
    rw [Layout.pick4]
    simp only [out, Layout.pick0, Layout.pick1, Layout.pick2, Layout.pick3, Layout.pick4,
      addf_apply, mulf_apply, subf_apply, res_main_v2, broadcastInDim, constant_apply, f32_zero, f32_one, f32_two,
      mul_one, mul_zero, add_zero, zero_add, sub_zero,
      res_main_v10, res_main_v15, res_main_v19, res_main_v27, res_main_v32, res_main_v36, res_main_v44, res_main_v49,
      res_main_v53, res_main_v61, res_main_v70, res_main_v78, res_main_v87, res_main_v95, res_main_v104, res_main_v112,
      res_main_v121, res_main_v129, res_main_v150, res_main_v152, res_main_v154, res_main_v158, res_main_v164, res_main_v167,
      res_main_v170, res_main_v173, res_main_v178, res_main_v179, res_main_v180, res_main_v181, res_main_v185, res_main_v188,
      res_main_v191, res_main_v195, res_main_v196, res_main_v197, res_main_v198, res_main_v201, res_main_v204, res_main_v208,
      res_main_v209, res_main_v210, res_main_v213, res_main_v217, res_main_v218,
      col1, col2, col3, col4, col5, col6, col7, col8, col9, col10, col11, col12,
      b0, b1, b2, b3, b4, is0, is1, is2, is3, is4, hz, s0, s1, s2, s3, s4, s5, s6, s7, c1, c2, c3, c4, c5, c6, c7,
      xor2, or2, not1]

end Cert.ReferenceIdeal.SpikeValue

end
-- ==== Proof.lean ====
/-
  The floor of the base-2 logarithm of a float given as 32 bit-pulses, computed with boolean gates written as arithmetic:
  the kernel program against the host program, over the extended reals.

  Both programs read, at every position `(b, s)` of the [1024, 4096] plane, entries 1..12 of the input row (eight
  exponent bits and four mantissa bits), subtract 127 from the exponent with a ripple adder, turn the difference into the
  indicators "the difference is 0", ..., "is 4", combine these with the mantissa bits and emit five result bits
  (Proof/Spec.lean writes the arithmetic down once, as `Cert.Spike.out`).  The kernel does this block by block on
  [128, 128] planes cut out of a [128, 128, 32] block (Proof/KernelValue.lean: the result array is `Cert.Spike.G` of the
  input array); the host program does it on whole [1024, 4096, 1] columns (Proof/ReferenceValue.lean: the same `G`).

  The two programs differ only where the host program adds a literal 0 bit in the seven lower adder positions and
  multiplies by a column of ones: `x + 0`, `(2 x) 0`, `y - 0`, `x 0 + y` and `x 1` against `x`, `0`, `y`, `y` and `x`.
  These are laws of the extended reals that hold at the infinities too, so no finiteness of the inputs is used.
  The three frames are the generated ones (the host program's is its generated run with the result dropped), and the
  idealization rewrote nothing, so its conjunct is trivial.
-/
import proofs.«129797_j76312978916076_2_alg».proof.Defs
import proofs.«129797_j76312978916076_2_alg».proof.Proof.Gen.Kernel
import proofs.«129797_j76312978916076_2_alg».proof.Proof.Gen.Kernel.Skeleton
import proofs.«129797_j76312978916076_2_alg».proof.Proof.Gen.Kernel.Launch
import proofs.«129797_j76312978916076_2_alg».proof.Proof.Gen.Kernel.Points
import proofs.«129797_j76312978916076_2_alg».proof.Proof.Gen.Kernel.Frame
import proofs.«129797_j76312978916076_2_alg».proof.Proof.Gen.KernelIdeal
import proofs.«129797_j76312978916076_2_alg».proof.Proof.Gen.KernelIdeal.Skeleton
import proofs.«129797_j76312978916076_2_alg».proof.Proof.Gen.KernelIdeal.Launch
import proofs.«129797_j76312978916076_2_alg».proof.Proof.Gen.KernelIdeal.Points
import proofs.«129797_j76312978916076_2_alg».proof.Proof.Gen.KernelIdeal.Frame
import proofs.«129797_j76312978916076_2_alg».proof.Proof.Gen.ReferenceIdeal
import proofs.«129797_j76312978916076_2_alg».proof.Proof.Gen.Pre_finite_inputs
import proofs.«129797_j76312978916076_2_alg».proof.Proof.Gen.ReferenceIdeal.Run
import proofs.«129797_j76312978916076_2_alg».proof.Proof.KernelValue
import proofs.«129797_j76312978916076_2_alg».proof.Proof.ReferenceValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The host program's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the input array both programs end with the result array at `G` of that input. -/
theorem algebraic : Cert.algebraic_KernelIdeal_ReferenceIdeal := by
  intro m ρ m' ρ' _ hagree
  refine ⟨fun c => Cert.Spike.G (m ((c.tc : Thread Cert.KernelIdeal.nD Cert.KernelIdeal.τ).loc Cert.KernelIdeal.main_arg0)),
    Cert.KernelIdeal.SpikeValue.run m ρ, ?_⟩
  refine (θ_run Cert.ReferenceIdeal.defs _ _).mono (fun _ h c => ⟨(h c).1.trans ?_, (h c).2⟩)
    (Cert.ReferenceIdeal.Value.run (F := Ideal) m' ρ')
  exact ((Cert.ReferenceIdeal.Value.val5_main_v223 _).symm.trans (Cert.ReferenceIdeal.SpikeValue.result_eq _)).trans
    (congrArg Cert.Spike.G (hagree c))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
